-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x64 : Shape := ⟨3, ![64, 1024, 64]⟩
abbrev S64x1024 : Shape := ⟨2, ![64, 1024]⟩
abbrev S_ : Shape := ⟨0, ![]⟩

class Facts : Prop where
  bcast_S_S64x1024x64 : S_.BroadcastsInDim S64x1024x64 (![] : Fin 0 → Fin S64x1024x64.rank)
  reducesTo_S64x1024x64_S_d0_1_2 : S64x1024x64.ReducesTo [0, 1, 2] S_
  h_S_ : 0 < S_.numel

variable [Facts]

def fn {F : FTy → Type} [FloatOps F] (main_arg0 : FVec F S64x1024x64 .f32) (main_arg1 : FVec F S64x1024x64 .f32) (main_arg2 : IVec S64x1024 32) : IVec S_ 1 :=
  let main_v0 : FVec F S64x1024x64 .f32 := Host.absf main_arg0
  let main_cst : FVec F S_ .f32 := constant S_ .f32 0x7F800000#32
  let main_v1 : FVec F S64x1024x64 .f32 := broadcastInDim S64x1024x64 ![] bcast_S_S64x1024x64 main_cst
  let main_v2 : IVec S64x1024x64 1 := cmpf .olt main_v0 main_v1
  let main_c : IVec S_ 1 := constantI S_ 1 1#1
  let main_v3 : IVec S_ 1 := (fun x v => Host.reduce IntOp.andi x v reducesTo_S64x1024x64_S_d0_1_2 h_S_) main_v2 main_c
  let main_v4 : FVec F S64x1024x64 .f32 := Host.absf main_arg1
  let main_cst_0 : FVec F S_ .f32 := constant S_ .f32 0x7F800000#32
  let main_v5 : FVec F S64x1024x64 .f32 := broadcastInDim S64x1024x64 ![] bcast_S_S64x1024x64 main_cst_0
  let main_v6 : IVec S64x1024x64 1 := cmpf .olt main_v4 main_v5
  let main_c_1 : IVec S_ 1 := constantI S_ 1 1#1
  let main_v7 : IVec S_ 1 := (fun x v => Host.reduce IntOp.andi x v reducesTo_S64x1024x64_S_d0_1_2 h_S_) main_v6 main_c_1
  let main_v8 : IVec S_ 1 := andi main_v3 main_v7
  main_v8
-- ==== Kernel.lean ====
abbrev S64x1024x64 : Shape := ⟨3, ![64, 1024, 64]⟩
abbrev S64x1024 : Shape := ⟨2, ![64, 1024]⟩
abbrev S64x1x1024 : Shape := ⟨3, ![64, 1, 1024]⟩
abbrev S64x1x1 : Shape := ⟨3, ![64, 1, 1]⟩
abbrev S4x1024x64 : Shape := ⟨3, ![4, 1024, 64]⟩
abbrev S4x1x1024 : Shape := ⟨3, ![4, 1, 1024]⟩
abbrev S4x1x1 : Shape := ⟨3, ![4, 1, 1]⟩
abbrev S4x1024 : Shape := ⟨2, ![4, 1024]⟩
abbrev S4x1024x1 : Shape := ⟨3, ![4, 1024, 1]⟩
abbrev S4x256x64 : Shape := ⟨3, ![4, 256, 64]⟩
abbrev S4x256x1024 : Shape := ⟨3, ![4, 256, 1024]⟩
abbrev S4x1 : Shape := ⟨2, ![4, 1]⟩
abbrev S_ : Shape := ⟨0, ![]⟩

abbrev nBuf : Space → Nat
  | .hbm => 11
  | .vmem => 10
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024, .i32⟩
  | .hbm, ⟨3, _⟩ => ⟨S64x1x1024, .i32⟩
  | .hbm, ⟨4, _⟩ => ⟨S64x1x1, .f32⟩
  | .hbm, ⟨5, _⟩ => ⟨S_, .f32⟩
  | .hbm, ⟨6, _⟩ => ⟨S_, .f32⟩
  | .hbm, ⟨7, _⟩ => ⟨S64x1024, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S4x1024x64, .f32⟩
  | .local _ .vmem, ⟨1, _⟩ => ⟨S4x1024x64, .f32⟩
  | .local _ .vmem, ⟨2, _⟩ => ⟨S4x1024x64, .f32⟩
  | .local _ .vmem, ⟨3, _⟩ => ⟨S4x1024x64, .f32⟩
  | .local _ .vmem, ⟨4, _⟩ => ⟨S4x1x1024, .i32⟩
  | .local _ .vmem, ⟨5, _⟩ => ⟨S4x1x1024, .i32⟩
  | .local _ .vmem, ⟨6, _⟩ => ⟨S4x1x1, .f32⟩
  | .local _ .vmem, ⟨7, _⟩ => ⟨S4x1x1, .f32⟩
  | .local _ .vmem, ⟨8, _⟩ => ⟨S4x1024x64, .bf16⟩
  | .local _ .vmem, ⟨9, _⟩ => ⟨S4x1x1024, .f32⟩
  | _, _ => ⟨S64x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v27 : BitVec 32 := Scalar.addi c0_i32 c4_i32
  let c1_i32 : BitVec 32 := 1#32
  ⟨c0_i32, v27, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v38 : BitVec 32 := Scalar.muli arg7 c256_i32
  v38
def k0_off1 (k0_t1 : Fin k0_t1_loop.trips) : Fin 3 → Nat :=
  let c0_27 : Index := 0#32
  let c0_i32 : BitVec 32 := 0#32
  let c1_i32 : BitVec 32 := 1#32
  let arg7 : BitVec 32 := Scf.iv c0_i32 c1_i32 k0_t1
  let c256_i32 : BitVec 32 := 256#32
  let v38 : BitVec 32 := Scalar.muli arg7 c256_i32
  let v39 : BitVec 32 := v38
  let v40 : Index := Scalar.indexCast v39
  let c0_28 : Index := 0#32
  ![0, v40.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S64x1024_S64x1x1024_0_2 : S64x1024.BroadcastsInDim S64x1x1024 (![0, 2] : Fin 2 → Fin S64x1x1024.rank)
  inb_S4x1024x64_S4x1024x64_0_0_0 : ∀ a, (![0, 0, 0] : Fin 3 → Nat) a + S4x1024x64.size a ≤ S4x1024x64.size a
  h_S4x1024x64 : 0 < S4x1024x64.numel
  reduces_S4x1024x64_S4x1024 : S4x1024x64.Reduces [2] S4x1024
  shapeCasts_S4x1024_S4x1024x1 : S4x1024.ShapeCasts S4x1024x1
  broadcasts_S4x1024x1_S4x1024x64 : S4x1024x1.Broadcasts S4x1024x64
  bitsLt_bf16_f32 : FTy.bits .bf16 < FTy.bits .f32
  shapeCasts_S4x1024x64_S4x1024x64 : S4x1024x64.ShapeCasts S4x1024x64
  packedbf16_S4x1024x64_S4x1024x64_0_0_0 : (Rect.unit (s := S4x1024x64) ![0, 0, 0] S4x1024x64.size inb_S4x1024x64_S4x1024x64_0_0_0).PackedRows (EltTy.packing .bf16)
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  h_S4x256x64 : 0 < S4x256x64.numel
  reduces_S4x256x1024_S4x1024 : S4x256x1024.Reduces [1] S4x1024
  shapeCasts_S4x1024_S4x1x1024 : S4x1024.ShapeCasts S4x1x1024
  reduces_S4x1x1024_S4x1 : S4x1x1024.Reduces [2] S4x1
  shapeCasts_S4x1_S4x1x1 : S4x1.ShapeCasts S4x1x1
  inb_S4x1x1_S4x1x1_0_0_0 : ∀ a, (![0, 0, 0] : Fin 3 → Nat) a + S4x1x1.size a ≤ S4x1x1.size a
  h_S4x1x1 : 0 < S4x1x1.numel
  reducesTo_S64x1x1_S_d0_1_2 : S64x1x1.ReducesTo [0, 1, 2] S_
  h_S_ : 0 < S_.numel
  reducesTo_S64x1024_S_d0_1 : S64x1024.ReducesTo [0, 1] S_
  dot_S4x256x64_S4x1024x64_S4x256x1024_2_2_1_1_0_0_wf : DotDims.WF S4x256x64 S4x1024x64 S4x256x1024 [2] [2] [1] [1] [0] [0]
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S4x256x64.size a ≤ S4x1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x64.size a ≤ S64x1024x64.size a
  hwx0_0 : ∀ i : grid0.Coords, EltTy.bits .f32 = 32 ∨ (Rect.block (s := S64x1024x64) S4x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x64.size a ≤ S64x1024x64.size a
  hwx0_1 : ∀ i : grid0.Coords, EltTy.bits .f32 = 32 ∨ (Rect.block (s := S64x1024x64) S4x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1024.size a ≤ S64x1x1024.size a
  hwx0_2 : ∀ i : grid0.Coords, EltTy.bits .i32 = 32 ∨ (Rect.block (s := S64x1x1024) S4x1x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x1x1.size a ≤ S64x1x1.size a
  hwx0_3 : ∀ i : grid0.Coords, EltTy.bits .f32 = 32 ∨ (Rect.block (s := S64x1x1) S4x1x1.size (cc0_transform_3 i) (hinb0_3 i)).WholeWords (EltTy.packing .f32)

variable [Facts₀]

def dot_S4x256x64_S4x1024x64_S4x256x1024_2_2_1_1_0_0 : DotDims S4x256x64 S4x1024x64 S4x256x1024 where
  lhsContracting := [2]
  rhsContracting := [2]
  lhsNonContracting := [1]
  rhsNonContracting := [1]
  lhsBatch := [0]
  rhsBatch := [0]
  wf := dot_S4x256x64_S4x1024x64_S4x256x1024_2_2_1_1_0_0_wf

abbrev win0_0 : Pipeline.Window sig grid0 :=
  Pipeline.Window.ofSpec (Memref.whole main_arg0) S4x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S4x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x1024x64 : Shape := ⟨3, ![64, 1024, 64]⟩
abbrev S64x1024 : Shape := ⟨2, ![64, 1024]⟩
abbrev S_ : Shape := ⟨0, ![]⟩
abbrev S64x1024x1 : Shape := ⟨3, ![64, 1024, 1]⟩
abbrev S64x1024x1024 : Shape := ⟨3, ![64, 1024, 1024]⟩

abbrev nBuf : Space → Nat
  | .hbm => 36
  | .vmem => 0
  | .smem => 0
  | _ => 0

abbrev bufTy : (tb : Table) → Fin (tcTables nBuf tb) → BufTy
  | .hbm, ⟨0, _⟩ => ⟨S64x1024x64, .f32⟩
  | .hbm, ⟨1, _⟩ => ⟨S64x1024x64, .f32⟩
  | .hbm, ⟨2, _⟩ => ⟨S64x1024, .i32⟩
  | .hbm, ⟨3, _⟩ => ⟨S64x1024x64, .f32⟩
  | .hbm, ⟨4, _⟩ => ⟨S_, .f32⟩
  | .hbm, ⟨5, _⟩ => ⟨S64x1024, .f32⟩
  | .hbm, ⟨6, _⟩ => ⟨S64x1024x1, .f32⟩
  | .hbm, ⟨7, _⟩ => ⟨S64x1024x1, .f32⟩
  | .hbm, ⟨8, _⟩ => ⟨S_, .f32⟩
  | .hbm, ⟨9, _⟩ => ⟨S64x1024x1, .f32⟩
  | .hbm, ⟨10, _⟩ => ⟨S64x1024x1, .f32⟩
  | .hbm, ⟨11, _⟩ => ⟨S64x1024x64, .f32⟩
  | .hbm, ⟨12, _⟩ => ⟨S64x1024x64, .f32⟩
  | .hbm, ⟨13, _⟩ => ⟨S64x1024x64, .f32⟩
  | .hbm, ⟨14, _⟩ => ⟨S_, .f32⟩
  | .hbm, ⟨15, _⟩ => ⟨S64x1024, .f32⟩
  | .hbm, ⟨16, _⟩ => ⟨S64x1024x1, .f32⟩
  | .hbm, ⟨17, _⟩ => ⟨S64x1024x1, .f32⟩
  | .hbm, ⟨18, _⟩ => ⟨S_, .f32⟩
  | .hbm, ⟨19, _⟩ => ⟨S64x1024x1, .f32⟩
  | .hbm, ⟨20, _⟩ => ⟨S64x1024x1, .f32⟩
  | .hbm, ⟨21, _⟩ => ⟨S64x1024x64, .f32⟩
  | .hbm, ⟨22, _⟩ => ⟨S64x1024x64, .f32⟩
  | .hbm, ⟨23, _⟩ => ⟨S64x1024x1024, .f32⟩
  | .hbm, ⟨24, _⟩ => ⟨S_, .f32⟩
  | .hbm, ⟨25, _⟩ => ⟨S64x1024, .f32⟩
  | .hbm, ⟨26, _⟩ => ⟨S_, .f32⟩
  | .hbm, ⟨27, _⟩ => ⟨S64x1024, .f32⟩
  | .hbm, ⟨28, _⟩ => ⟨S64x1024, .f32⟩
  | .hbm, ⟨29, _⟩ => ⟨S64x1024, .f32⟩
  | .hbm, ⟨30, _⟩ => ⟨S64x1024, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  reducesTo_S64x1024x64_S64x1024_d2 : S64x1024x64.ReducesTo [2] S64x1024
  h_S_ : 0 < S_.numel
  bcast_S64x1024_S64x1024x1_0_1 : S64x1024.BroadcastsInDim S64x1024x1 (![0, 1] : Fin 2 → Fin S64x1024x1.rank)
  bcast_S_S64x1024x1 : S_.BroadcastsInDim S64x1024x1 (![] : Fin 0 → Fin S64x1024x1.rank)
  bcast_S64x1024x1_S64x1024x64_0_1_2 : S64x1024x1.BroadcastsInDim S64x1024x64 (![0, 1, 2] : Fin 3 → Fin S64x1024x64.rank)
  reducesTo_S64x1024x1024_S64x1024_d1 : S64x1024x1024.ReducesTo [1] S64x1024
  bcast_S_S64x1024 : S_.BroadcastsInDim S64x1024 (![] : Fin 0 → Fin S64x1024.rank)
  reducesTo_S64x1024_S_d0_1 : S64x1024.ReducesTo [0, 1] S_
  dot_S64x1024x64_S64x1024x64_S64x1024x1024_2_2_1_1_0_0_wf : DotDims.WF S64x1024x64 S64x1024x64 S64x1024x1024 [2] [2] [1] [1] [0] [0]

variable [Facts₀]

def dot_S64x1024x64_S64x1024x64_S64x1024x1024_2_2_1_1_0_0 : DotDims S64x1024x64 S64x1024x64 S64x1024x1024 where
  lhsContracting := [2]
  rhsContracting := [2]
  lhsNonContracting := [1]
  rhsNonContracting := [1]
  lhsBatch := [0]
  rhsBatch := [0]
  wf := dot_S64x1024x64_S64x1024x64_S64x1024x1024_2_2_1_1_0_0_wf

class Facts : Prop extends Facts₀ where

variable [Facts]
-- ==== Proof.KernelBody.lean ====
/-
  What one grid point of the kernel leaves in its output block, as a pure function of the point's three input blocks.

  The body first stores the normalised first block into one scratch buffer and fills the other scratch buffer (the
  running maximum, one value per batch and column) with the starting value. Each of the loop's trips then reads 256
  rows of the first scratch buffer and the whole running maximum, and stores the updated running maximum back. After
  the loop the running maximum is read once more; the output block is computed from it and from the mask block.

  So the running maximum after `k` trips is a recursion on `k` (`acc`), and what the run leaves in the buffer after
  `k` trips reads back as `acc k`: by induction on `k`, since every store covers the whole buffer and a read after a
  covering store returns that store's value.
-/
import proofs.«102936_j48911087566953_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

/-- The zero offsets of a rank-3 rectangle, however spelt. -/
theorem hz3 : (![0, 0, 0] : Fin 3 → Nat) = fun _ => 0 := funext fun a => by fin_cases a <;> rfl

/-- The loop makes exactly four trips. -/
theorem trips_eq : k0_t1_loop.trips = 4 := by decide

/-- The 256 rows of the normalised first block that trip `k` reads. -/
def rowsOf (x0 : Vec F S4x1024x64 .f32) (k : Fin k0_t1_loop.trips) : Vec F S4x256x64 .bf16 :=
  View.ld (Val := Elt F) (k0_pay2 x0) (Rect.unit (s := S4x1024x64) (k0_off1 k) S4x256x64.size (k0_off1_inb k))

/-- The running maximum after `k` trips: the starting fill, then one update per trip. -/
def acc (x0 x1 : Vec F S4x1024x64 .f32) : ℕ → Vec F S4x1x1024 .f32
  | 0 => k0_pay3
  | k + 1 => if h : k < k0_t1_loop.trips then k0_pay4 x1 (rowsOf x0 ⟨k, h⟩) (acc x0 x1 k) else acc x0 x1 k

theorem acc_succ (x0 x1 : Vec F S4x1024x64 .f32) (k : Fin k0_t1_loop.trips) :
    acc x0 x1 (k.val + 1) = k0_pay4 x1 (rowsOf x0 k) (acc x0 x1 k.val) := by
  rw [acc]; exact dif_pos k.isLt

/-- One trip stores one value over the whole running-maximum buffer: the update of what it finds there. -/
theorem trip_pieces (c : Dev nD) (i : grid0.Coords) (arg1 : Memref sig .tc .vmem S4x1024x64 .f32) (harg1 : arg1.IsWhole) (arg2 : Memref sig .tc .vmem S4x1024x64 .f32) (harg2 : arg2.IsWhole) (arg3 : Memref sig .tc .vmem S4x1x1024 .i32) (harg3 : arg3.IsWhole) (arg4 : Memref sig .tc .vmem S4x1x1 .f32) (harg4 : arg4.IsWhole) (arg5 : Memref sig .tc .vmem S4x1024x64 .bf16) (harg5 : arg5.IsWhole) (arg6 : Memref sig .tc .vmem S4x1x1024 .f32) (harg6 : arg6.IsWhole)
    (v13 : Vec F S4x1024x64 .f32) (X5 : BufTy.Contents (Elt F) arg5.view.ty) (k : Fin k0_t1_loop.trips) (f6 : BufTy.Contents (Elt F) arg6.view.ty) :
    tripL_k0_t1 (F := F) Variants.none c none i arg1 harg1 arg2 harg2 arg3 harg3 arg4 harg4 arg5 harg5 arg6 harg6 v13 X5 k f6
      = [⟨Rect.unit (s := S4x1x1024) ![0, 0, 0] S4x1x1024.size inb_S4x1x1024_S4x1x1024_0_0_0,
          k0_pay4 v13 (View.readAt (Elt F) arg5.view (Rect.unit (s := S4x1024x64) (k0_off1 k) S4x256x64.size (k0_off1_inb k)).toLoadRect X5)
            (View.readAt (Elt F) arg6.view (Rect.unit (s := S4x1x1024) ![0, 0, 0] S4x1x1024.size inb_S4x1x1024_S4x1x1024_0_0_0).toLoadRect f6)⟩] := by
  unfold tripL_k0_t1
  unfold trip_k0_t1
  rfl

/-- After `k` trips the running-maximum buffer reads as `acc k`. -/
theorem scratch_after (c : Dev nD) (i : grid0.Coords) (arg1 : Memref sig .tc .vmem S4x1024x64 .f32) (harg1 : arg1.IsWhole) (arg2 : Memref sig .tc .vmem S4x1024x64 .f32) (harg2 : arg2.IsWhole) (arg3 : Memref sig .tc .vmem S4x1x1024 .i32) (harg3 : arg3.IsWhole) (arg4 : Memref sig .tc .vmem S4x1x1 .f32) (harg4 : arg4.IsWhole) (arg5 : Memref sig .tc .vmem S4x1024x64 .bf16) (harg5 : arg5.IsWhole) (arg6 : Memref sig .tc .vmem S4x1x1024 .f32) (harg6 : arg6.IsWhole)
    (x0 x1 : Vec F S4x1024x64 .f32) : ∀ k : ℕ, k ≤ k0_t1_loop.trips →
    arg6.view.read (Elt F) (arg6.view.writes (Elt F) arg6.view.junk
      (pb_k0_t1 (F := F) Variants.none c none i arg1 harg1 arg2 harg2 arg3 harg3 arg4 harg4 arg5 harg5 arg6 harg6 x1
          (arg5.view.writes (Elt F) arg5.view.junk [⟨Rect.unit (s := S4x1024x64) ![0, 0, 0] S4x1024x64.size inb_S4x1024x64_S4x1024x64_0_0_0, k0_pay2 x0⟩])
          (arg6.view.writes (Elt F) arg6.view.junk [⟨Rect.unit (s := S4x1x1024) ![0, 0, 0] S4x1x1024.size inb_S4x1x1024_S4x1x1024_0_0_0, k0_pay3⟩]) k
        ++ [⟨Rect.unit (s := S4x1x1024) ![0, 0, 0] S4x1x1024.size inb_S4x1x1024_S4x1x1024_0_0_0, k0_pay3⟩]))
      = acc x0 x1 k
  | 0, _ => by
    rw [pb_k0_t1, List.nil_append, View.read_writes_junk_eq_canon, View.canon_unit_zero hz3]
    rfl
  | k + 1, hk => by
    have ih := scratch_after c i arg1 harg1 arg2 harg2 arg3 harg3 arg4 harg4 arg5 harg5 arg6 harg6 x0 x1 k (Nat.le_of_succ_le hk)
    have hlt : k < k0_t1_loop.trips := hk
    rw [show k + 1 = (⟨k, hlt⟩ : Fin k0_t1_loop.trips).val + 1 from rfl, pb_k0_t1_succ, trip_pieces, acc_succ]
    rw [List.singleton_append, List.cons_append, View.read_writes_junk_eq_canon, View.canon_cons_unit_zero (S := S4x1x1024) hz3]
    rw [← View.writes_append, View.readAt_writes_junk_eq_canon]
    rw [View.canon_unit_zero (S := S4x1024x64) hz3, View.readAt_eq_ld, ih, View.ld_unit_zero (S := S4x1x1024) hz3]
    rfl

/-- What the body leaves in the output block at a point with input blocks `x0`, `x1`, `x2`: the weighted sum
    (`k0_pay1`) of one minus (`k0_pay5`) the running maximum after all the trips, against the mask block. -/
theorem out_eq (c : Dev nD) (i : grid0.Coords) (arg1 : Memref sig .tc .vmem S4x1024x64 .f32) (harg1 : arg1.IsWhole) (arg2 : Memref sig .tc .vmem S4x1024x64 .f32) (harg2 : arg2.IsWhole) (arg3 : Memref sig .tc .vmem S4x1x1024 .i32) (harg3 : arg3.IsWhole) (arg4 : Memref sig .tc .vmem S4x1x1 .f32) (harg4 : arg4.IsWhole) (arg5 : Memref sig .tc .vmem S4x1024x64 .bf16) (harg5 : arg5.IsWhole) (arg6 : Memref sig .tc .vmem S4x1x1024 .f32) (harg6 : arg6.IsWhole)
    (x0 x1 : Vec F S4x1024x64 .f32) (x2 : Vec F S4x1x1024 .i32) :
    out0_A_3 c i arg1 harg1 arg2 harg2 arg3 harg3 arg4 harg4 arg5 harg5 arg6 harg6 x0 x1 x2 = k0_pay1 (k0_pay5 (acc x0 x1 k0_t1_loop.trips)) x2 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  sl_unfold_words
  rw [View.canon_unit_zero (S := S4x1x1) hz3]
  simp only [View.readAt_eq_ld, harg1.read_unread, harg2.read_unread, harg3.read_unread,
    View.ld_unit_zero (S := S4x1024x64) hz3, View.ld_unit_zero (S := S4x1x1024) hz3]
  exact congrArg (fun a => k0_pay1 (k0_pay5 a) x2) (scratch_after c i arg1 harg1 arg2 harg2 arg3 harg3 arg4 harg4 arg5 harg5 arg6 harg6 x0 x1 k0_t1_loop.trips le_rfl)

end Cert.KernelIdeal.Body

end
-- ==== Proof.LibLayout3.lean ====
/-
  Three layout operations on arrays of rank 2 and 3, read at an index given by its coordinates.

  A cast that appends or inserts a unit axis does not move an entry: the row-major position of (i, j) in [a, b] is
  that of (i, j, 0) in [a, b, 1] and of (i, 0, j) in [a, 1, b]. A broadcast of [a, b, 1] along its unit last axis to
  [a, b, c] repeats the one entry of row (i, j) at every k. Stated for any extents and any entry type.
-/
import Idealize.ShloMosaic.Lib.Pipeline.Value
import Idealize.ShloMosaic.Lib.ValueLayout
import Idealize.ShloMosaic.Lib.ValueIdx

namespace Cert.LibLayout3

open Idealize.ShloMosaic Idealize.ShloMosaic.ValueIdx

variable {α : Type}

/-- An `[a, b]` array cast to `[a, b, 1]` reads, at `(i, j, u)`, the operand at `(i, j)`: the two row-major
    positions agree because the unit coordinate is 0. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one entry of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show 0 = if (1 : ℕ) = 1 then 0 else k.val
    rw [if_pos rfl]

end Cert.LibLayout3
-- ==== Proof.Spec.lean ====
/-
  The common value of the two programs, as one function of the argument arrays over the extended reals.

  For arrays `p`, `y` of shape [B, 1024, 64] and an integer mask of shape [B, 1024]:
  every row (b, s, ·) is divided by the larger of its Euclidean norm and a small positive constant (`nrm`);
  `sim p y b x t` is the inner product of row x of `p` with row t of `y` (batch b);
  `best p y b t` is the maximum over all 1024 rows x, starting from -∞;
  the loss at (b, t) is `1 - best`, weighted by the mask read as an integer; the result is the sum of the weighted
  losses divided by the sum of the weights.

  `running` is the other arrangement of the same maximum: start from the finite value -2, then take in four chunks
  of 256 rows, each chunk's own maximum from -∞. It equals `best` as soon as one inner product is at least -2, which the
  Cauchy–Schwarz inequality gives for real inputs (Bound.lean).
-/
import Idealize.ShloMosaic.PureOps.Ideal
import Idealize.ShloMosaic.PureOps.Ideal.Laws
import Idealize.ShloMosaic.Lib.ValueIdx

noncomputable section

namespace Cert.CosLoss

open Idealize.ShloMosaic Idealize.ShloMosaic.ValueIdx

/-- An array of `B` batches of 1024 rows of 64 extended reals. -/
abbrev Arr (B : Nat) := (⟨3, ![B, 1024, 64]⟩ : Shape).Idx → EReal
/-- An integer mask, one word per (batch, row). -/
abbrev Msk (B : Nat) := (⟨2, ![B, 1024]⟩ : Shape).Idx → BitVec 32

/-- The small positive constant the norm is kept above. -/
def eps : EReal := Ideal.ofBits .f32 0x322BCC77#32
/-- -∞. -/
def negInf : EReal := Ideal.ofBits .f32 0xFF800000#32
/-- 1. -/
def one : EReal := Ideal.ofBits .f32 0x3F800000#32
/-- -2, where the running maximum starts. -/
def start : EReal := Ideal.ofBits .f32 0xC0000000#32

/-- The sum of the squares of row (b, s). -/
def sq {B : Nat} (v : Arr B) (b : Fin B) (s : Fin 1024) : EReal := ∑ k : Fin 64, v (ix3 b s k) * v (ix3 b s k)

/-- Entry d of row (b, s), the row divided by max(‖row‖, eps). -/
def nrm {B : Nat} (v : Arr B) (b : Fin B) (s : Fin 1024) (d : Fin 64) : EReal :=
  Ideal.div (v (ix3 b s d)) (max (Ideal.sqrt (sq v b s)) eps)

/-- The inner product of normalised row x of `p` and normalised row t of `y`, in batch b. -/
def sim {B : Nat} (p y : Arr B) (b : Fin B) (x t : Fin 1024) : EReal := ∑ d : Fin 64, nrm p b x d * nrm y b t d

/-- The maximum over all rows x, from -∞. -/
def best {B : Nat} (p y : Arr B) (b : Fin B) (t : Fin 1024) : EReal :=
  (Finset.univ : Finset (Fin 1024)).fold max negInf (fun x => sim p y b x t)

/-- Row x of chunk c is row 256 c + x. -/
def chunkRow (c : Fin 4) (x : Fin 256) : Fin 1024 := ⟨256 * c.val + x.val, by have := c.isLt; have := x.isLt; omega⟩

/-- The maximum over the 256 rows of chunk c, from -∞. -/
def chunk {B : Nat} (p y : Arr B) (b : Fin B) (c : Fin 4) (t : Fin 1024) : EReal :=
  (Finset.univ : Finset (Fin 256)).fold max negInf (fun x => sim p y b (chunkRow c x) t)

/-- The running maximum before chunk k: -2, then the chunks before k taken in one after the other. -/
def runningUpTo {B : Nat} (p y : Arr B) (b : Fin B) (t : Fin 1024) : Nat → EReal
  | 0 => start
  | k + 1 => max (runningUpTo p y b t k) (if h : k < 4 then chunk p y b ⟨k, h⟩ t else negInf)

/-- The running maximum after all four chunks. -/
def running {B : Nat} (p y : Arr B) (b : Fin B) (t : Fin 1024) : EReal := runningUpTo p y b t 4

/-- The mask word at (b, t) read as a signed integer. -/
def wt {B : Nat} (mk : Msk B) (b : Fin B) (t : Fin 1024) : EReal := (((mk (ix2 b t)).toInt : ℝ) : EReal)

/-- The weighted loss of batch b given the maxima `M`: the sum over t of (1 - M t) · weight. -/
def rowLossOf {B : Nat} (M : Fin 1024 → EReal) (mk : Msk B) (b : Fin B) : EReal := ∑ t : Fin 1024, (one - M t) * wt mk b t

/-- The weighted loss of batch b. -/
def rowLoss {B : Nat} (p y : Arr B) (mk : Msk B) (b : Fin B) : EReal := rowLossOf (best p y b) mk b

/-- The numerator: the weighted losses of all batches. -/
def num (p y : Arr 64) (mk : Msk 64) : EReal := ∑ b : Fin 64, rowLoss p y mk b

/-- The denominator: the sum of all weights. -/
def den (mk : Msk 64) : EReal := ∑ i : (⟨2, ![64, 1024]⟩ : Shape).Idx, (((mk i).toInt : ℝ) : EReal)

/-- The result. -/
def result (p y : Arr 64) (mk : Msk 64) : EReal := Ideal.div (num p y mk) (den mk)

/-- Every entry is a real number. -/
def IsReal {B : Nat} (v : Arr B) : Prop := ∀ i, ∃ r : ℝ, v i = (r : EReal)

end Cert.CosLoss

end
-- ==== Proof.Payload.lean ====
/-
  Each of the idealized kernel's five stored values, read at one index, in the specification's vocabulary.

  The blocks have batch extent 4. At a block index (j, s, d) the value stored into the normalised copy of the first
  argument is `nrm x j s d`; the running maximum is initialised to -2; one trip of the chunk loop replaces the running
  maximum at (j, t) by its maximum with the chunk's largest inner product; the loss term is 1 minus the running maximum;
  and the row total at j is the sum over t of the loss term times the mask word read as an integer.
-/
import proofs.«102936_j48911087566953_2_alg».proof.Proof.LibLayout3
import proofs.«102936_j48911087566953_2_alg».proof.Proof.Spec
import proofs.«102936_j48911087566953_2_alg».proof.Proof.Gen.KernelIdeal.Skeleton
import Idealize.ShloMosaic.Lib.Pipeline.Value
import Idealize.ShloMosaic.Lib.ValueLayout
import Idealize.ShloMosaic.PureOps.Ideal.Laws
import Idealize.ShloMosaic.Lib.ValueIdx

noncomputable section

namespace Cert.CosLoss.Pay

open Cert.KernelIdeal Cert.KernelIdeal.Gen Idealize.ShloMosaic Idealize.ShloMosaic.ValueIdx Cert.CosLoss Cert.LibLayout3

/-! ## The five stored values -/

/-- The running maximum starts at -2 everywhere. -/
theorem pay3_apply (j : Fin 4) (t : Fin 1024) : k0_pay3 (F := Ideal) (ix3 j (0 : Fin 1) t) = start := by
  unfold k0_pay3
  rw [shapeCast_self]
  rfl

/-- The loss term is 1 minus the running maximum. -/
theorem pay5_apply (A : Vec Ideal S4x1x1024 .f32) (j : Fin 4) (t : Fin 1024) :
    k0_pay5 (F := Ideal) A (ix3 j (0 : Fin 1) t) = one - A (ix3 j (0 : Fin 1) t) := by
  unfold k0_pay5
  rfl

/-- The index over `(j, 0)` with `t` put on the last axis is `(j, 0, t)`. -/
theorem lift_S4x1x1024 (h : S4x1x1024.Reduces [2] S4x1) (j : Fin 4) (t : Fin 1024) :
    h.lift (ix2 j (0 : Fin 1)) t = ix3 j (0 : Fin 1) t :=
  funext fun c => Fin.ext (by match c with | ⟨0, _⟩ => rfl | ⟨1, _⟩ => rfl | ⟨2, _⟩ => rfl)

/-- The row total: the sum over t of the loss term times the mask word read as a signed integer. -/
theorem pay1_apply (L : FVec Ideal S4x1x1024 .f32) (x2 : Vec Ideal S4x1x1024 .i32) (j : Fin 4) :
    k0_pay1 (F := Ideal) L x2 (ix3 j (0 : Fin 1) (0 : Fin 1))
      = ∑ t : Fin 1024, L (ix3 j (0 : Fin 1) t) * (((x2 (ix3 j (0 : Fin 1) t)).toInt : ℝ) : EReal) := by
  unfold k0_pay1
  refine (shapeCast_ab_ab1_apply _ _ j (0 : Fin 1) (0 : Fin 1)).trans ?_
  refine (Ideal.multiReduction_add_single _ _ _ _ _ _).trans ?_
  show ∑ t : Fin 1024, _ = _
  refine Finset.sum_congr rfl fun t _ => ?_
  rw [lift_S4x1x1024, shapeCast_self]
  rfl

/-- The index over `(j, s)` with `k` put on the last axis is `(j, s, k)`. -/
theorem lift_S4x1024x64 (h : S4x1024x64.Reduces [2] S4x1024) (j : Fin 4) (s : Fin 1024) (k : Fin 64) :
    h.lift (ix2 j s) k = ix3 j s k :=
  funext fun c => Fin.ext (by match c with | ⟨0, _⟩ => rfl | ⟨1, _⟩ => rfl | ⟨2, _⟩ => rfl)

/-- The lane sum of the squares of a block, at row `(j, s)`, is the specification's sum of squares. -/
theorem sumsq_apply (x : Vec Ideal S4x1024x64 .f32) (h : S4x1024x64.Reduces [2] S4x1024) (hφ : FKind.Formats .f32)
    (hacc : (0x00000000#32 : BitVec 32) = FKind.add.neutral .f32 hφ) (j : Fin 4) (s : Fin 1024) :
    multiReduction (F := Ideal) .add [2] S4x1024 (mulf x x) 0x00000000#32 h hφ hacc (ix2 j s) = sq x j s := by
  refine (Ideal.multiReduction_add_single _ _ _ _ _ _).trans ?_
  show ∑ k : Fin 64, _ = _
  unfold sq
  refine Finset.sum_congr rfl fun k _ => ?_
  rw [lift_S4x1024x64]
  rfl

/-- A block divided, row by row, by the larger of the row's norm and the small constant — the term both the stored
    copy of the first argument and the matmul's right operand are — read at `(j, s, d)`. -/
theorem normalised_apply (x : Vec Ideal S4x1024x64 .f32) (h : S4x1024x64.Reduces [2] S4x1024) (hφ : FKind.Formats .f32)
    (hacc : (0x00000000#32 : BitVec 32) = FKind.add.neutral .f32 hφ) (hc : S4x1024.ShapeCasts S4x1024x1)
    (hb : S4x1024x1.Broadcasts S4x1024x64) (ht : FTy.bits .bf16 < FTy.bits .f32) (j : Fin 4) (s : Fin 1024) (d : Fin 64) :
    (truncf (F := Ideal) .bf16 (divf x (broadcastTo S4x1024x64
        (maximumf (sqrt (shapeCast S4x1024x1 (multiReduction (F := Ideal) .add [2] S4x1024 (mulf x x) 0x00000000#32 h hφ hacc) hc))
          (broadcast S4x1024x1 (Scalar.ofBits (F := Ideal) .f32 0x322BCC77#32))) hb)) ht) (ix3 j s d) = nrm x j s d := by
  rw [truncf_apply, divf_apply]
  unfold nrm
  refine congrArg (Ideal.div (x (ix3 j s d))) ?_
  refine (broadcastTo_ab1_abc_apply _ _ j s d).trans ?_
  rw [maximumf_apply]
  refine congrArg₂ max ?_ rfl
  show Ideal.sqrt (shapeCast S4x1024x1 _ hc (ix3 j s (0 : Fin 1))) = _
  refine congrArg Ideal.sqrt ?_
  refine (shapeCast_ab_ab1_apply _ _ j s (0 : Fin 1)).trans ?_
  exact sumsq_apply x h hφ hacc j s

/-- The stored copy of the first argument is the normalised array. -/
theorem pay2_apply (x0 : Vec Ideal S4x1024x64 .f32) (j : Fin 4) (s : Fin 1024) (d : Fin 64) :
    k0_pay2 (F := Ideal) x0 (ix3 j s d) = nrm x0 j s d := by
  unfold k0_pay2
  rw [shapeCast_self]
  exact normalised_apply x0 _ _ _ _ _ _ j s d

/-! ## The chunk loop's stored value -/

/-- The index over `(j, t)` with `x` put on the middle axis is `(j, x, t)`. -/
theorem lift_S4x256x1024 (h : S4x256x1024.Reduces [1] S4x1024) (j : Fin 4) (t : Fin 1024) (x : Fin 256) :
    h.lift (ix2 j t) x = ix3 j x t :=
  funext fun c => Fin.ext (by match c with | ⟨0, _⟩ => rfl | ⟨1, _⟩ => rfl | ⟨2, _⟩ => rfl)

/-! The batched product contracts the last axis of both operands and batches on the first; its output is
`[4, 256, 1024]`. The six lemmas below name the coordinates of the two operand indices at an output index `i` and a
contraction position `q`. -/

/-- The left operand's index at output `i` and contraction position `q`: the batch coordinate, … -/
theorem lhs_dot_0 (i : S4x256x1024.Idx) (q : dot_S4x256x64_S4x1024x64_S4x256x1024_2_2_1_1_0_0.contr.Idx) :
    (dot_S4x256x64_S4x1024x64_S4x256x1024_2_2_1_1_0_0.lhsIdx i q 0).val = (i 0).val := by
  unfold DotDims.lhsIdx
  rw [dif_pos (show (0 : Fin S4x256x64.rank) ∈ dot_S4x256x64_S4x1024x64_S4x256x1024_2_2_1_1_0_0.lhsBatch by decide)]
  rfl
/-- … the output's row, … -/
theorem lhs_dot_1 (i : S4x256x1024.Idx) (q : dot_S4x256x64_S4x1024x64_S4x256x1024_2_2_1_1_0_0.contr.Idx) :
    (dot_S4x256x64_S4x1024x64_S4x256x1024_2_2_1_1_0_0.lhsIdx i q 1).val = (i 1).val := by
  unfold DotDims.lhsIdx
  rw [dif_neg (show ¬(1 : Fin S4x256x64.rank) ∈ dot_S4x256x64_S4x1024x64_S4x256x1024_2_2_1_1_0_0.lhsBatch by decide),
    dif_pos (show (1 : Fin S4x256x64.rank) ∈ dot_S4x256x64_S4x1024x64_S4x256x1024_2_2_1_1_0_0.lhsNonContracting by decide)]
  rfl
/-- … and the contraction position. -/
theorem lhs_dot_2 (i : S4x256x1024.Idx) (q : dot_S4x256x64_S4x1024x64_S4x256x1024_2_2_1_1_0_0.contr.Idx) :
    (dot_S4x256x64_S4x1024x64_S4x256x1024_2_2_1_1_0_0.lhsIdx i q 2).val = (q ⟨0, by decide⟩).val :=
  dot_S4x256x64_S4x1024x64_S4x256x1024_2_2_1_1_0_0.lhsIdx_val_of_single rfl i q
/-- The right operand's index: the batch coordinate, … -/
theorem rhs_dot_0 (i : S4x256x1024.Idx) (q : dot_S4x256x64_S4x1024x64_S4x256x1024_2_2_1_1_0_0.contr.Idx) :
    (dot_S4x256x64_S4x1024x64_S4x256x1024_2_2_1_1_0_0.rhsIdx i q 0).val = (i 0).val := by
  unfold DotDims.rhsIdx
  rw [dif_pos (show (0 : Fin S4x1024x64.rank) ∈ dot_S4x256x64_S4x1024x64_S4x256x1024_2_2_1_1_0_0.rhsBatch by decide)]
  rfl
/-- … the output's column, … -/
theorem rhs_dot_1 (i : S4x256x1024.Idx) (q : dot_S4x256x64_S4x1024x64_S4x256x1024_2_2_1_1_0_0.contr.Idx) :
    (dot_S4x256x64_S4x1024x64_S4x256x1024_2_2_1_1_0_0.rhsIdx i q 1).val = (i 2).val := by
  unfold DotDims.rhsIdx
  rw [dif_neg (show ¬(1 : Fin S4x1024x64.rank) ∈ dot_S4x256x64_S4x1024x64_S4x256x1024_2_2_1_1_0_0.rhsBatch by decide),
    dif_pos (show (1 : Fin S4x1024x64.rank) ∈ dot_S4x256x64_S4x1024x64_S4x256x1024_2_2_1_1_0_0.rhsNonContracting by decide)]
  rfl
/-- … and the contraction position. -/
theorem rhs_dot_2 (i : S4x256x1024.Idx) (q : dot_S4x256x64_S4x1024x64_S4x256x1024_2_2_1_1_0_0.contr.Idx) :
    (dot_S4x256x64_S4x1024x64_S4x256x1024_2_2_1_1_0_0.rhsIdx i q 2).val = (q ⟨0, by decide⟩).val :=
  dot_S4x256x64_S4x1024x64_S4x256x1024_2_2_1_1_0_0.rhsIdx_val_of_single rfl i q

/-- The batched product into the zero accumulator, at `(j, x, t)`: the inner product of row `x` of the left operand
    with row `t` of the right one, in batch `j`. -/
theorem matmul_dot_apply (P : FVec Ideal S4x256x64 .bf16) (R : FVec Ideal S4x1024x64 .bf16) (j : Fin 4) (x : Fin 256)
    (t : Fin 1024) :
    matmul dot_S4x256x64_S4x1024x64_S4x256x1024_2_2_1_1_0_0 none P R
        (constant (F := Ideal) S4x256x1024 .f32 0x00000000#32) (ix3 j x t)
      = ∑ d : Fin 64, P (ix3 j x d) * R (ix3 j t d) := by
  simp only [matmul]
  rw [Ideal.matmul_constant_zero_apply,
    ← Equiv.sum_comp (contrEquiv1 dot_S4x256x64_S4x1024x64_S4x256x1024_2_2_1_1_0_0 64 rfl rfl).symm]
  refine Finset.sum_congr rfl fun k _ => ?_
  have hk := contrEquiv1_symm_val dot_S4x256x64_S4x1024x64_S4x256x1024_2_2_1_1_0_0 64 rfl rfl k
  have el : dot_S4x256x64_S4x1024x64_S4x256x1024_2_2_1_1_0_0.lhsIdx (ix3 j x t)
      ((contrEquiv1 dot_S4x256x64_S4x1024x64_S4x256x1024_2_2_1_1_0_0 64 rfl rfl).symm k) = ix3 j x k := funext fun a => Fin.ext (by
    match a with
    | ⟨0, _⟩ => exact lhs_dot_0 _ _
    | ⟨1, _⟩ => exact lhs_dot_1 _ _
    | ⟨2, _⟩ => exact (lhs_dot_2 _ _).trans hk)
  have er : dot_S4x256x64_S4x1024x64_S4x256x1024_2_2_1_1_0_0.rhsIdx (ix3 j x t)
      ((contrEquiv1 dot_S4x256x64_S4x1024x64_S4x256x1024_2_2_1_1_0_0 64 rfl rfl).symm k) = ix3 j t k := funext fun a => Fin.ext (by
    match a with
    | ⟨0, _⟩ => exact rhs_dot_0 _ _
    | ⟨1, _⟩ => exact rhs_dot_1 _ _
    | ⟨2, _⟩ => exact (rhs_dot_2 _ _).trans hk)
  rw [el, er]

/-- The maximum over the middle axis of a `[4, 256, 1024]` block, from -∞, at `(j, t)`. -/
theorem chunkMax_apply (M : FVec Ideal S4x256x1024 .f32) (h : S4x256x1024.Reduces [1] S4x1024) (hφ : FKind.Formats .f32)
    (hacc : (0xFF800000#32 : BitVec 32) = FKind.maximumf.neutral .f32 hφ) (j : Fin 4) (t : Fin 1024) :
    multiReduction (F := Ideal) .maximumf [1] S4x1024 M 0xFF800000#32 h hφ hacc (ix2 j t)
      = (Finset.univ : Finset (Fin 256)).fold max negInf (fun x => M (ix3 j x t)) := by
  refine (Ideal.multiReduction_maximumf_single _ _ _ _ _ _).trans ?_
  show (Finset.univ : Finset (Fin 256)).fold max negInf _ = _
  refine Finset.fold_congr fun x _ => ?_
  exact congrArg M (lift_S4x256x1024 h j t x)

/-- One trip of the chunk loop: the running maximum at `(j, t)` becomes its maximum with the largest, over the
    chunk's 256 rows `x`, of the inner product of the stored row `x` with the normalised row `t` of the second
    argument. -/
theorem pay4_apply (x1 : Vec Ideal S4x1024x64 .f32) (P : Vec Ideal S4x256x64 .bf16) (A : Vec Ideal S4x1x1024 .f32)
    (j : Fin 4) (t : Fin 1024) :
    k0_pay4 (F := Ideal) x1 P A (ix3 j (0 : Fin 1) t)
      = max (A (ix3 j (0 : Fin 1) t))
          ((Finset.univ : Finset (Fin 256)).fold max negInf (fun x => ∑ d : Fin 64, P (ix3 j x d) * nrm x1 j t d)) := by
  unfold k0_pay4
  rw [shapeCast_self, maximumf_apply]
  refine congrArg (max (A (ix3 j (0 : Fin 1) t))) ?_
  refine (shapeCast_ab_a1b_apply _ _ j (0 : Fin 1) t).trans ?_
  refine (chunkMax_apply _ _ _ _ j t).trans ?_
  refine Finset.fold_congr fun x _ => ?_
  refine (matmul_dot_apply _ _ j x t).trans ?_
  refine Finset.sum_congr rfl fun d _ => ?_
  exact congrArg (P (ix3 j x d) * ·) (normalised_apply x1 _ _ _ _ _ _ j t d)

end Cert.CosLoss.Pay

end
-- ==== Proof.KernelPoint.lean ====
/-
  The running maximum and the output block of one grid point, read entry by entry over the extended reals.

  Trip `k` reads rows 256 k … 256 k + 255 of the normalised first block, so its update at (j, t) takes in exactly the
  inner products of chunk `k`; by induction the running maximum after `k` trips is the specification's
  `runningUpTo … k`, and after the four trips it is `running`. The output entry of batch `j` is then the sum over
  the columns of (1 − running) times the mask word read as an integer.
-/
import proofs.«102936_j48911087566953_2_alg».proof.Proof.KernelBody
import proofs.«102936_j48911087566953_2_alg».proof.Proof.Payload
import proofs.«102936_j48911087566953_2_alg».proof.Proof.Spec
import Idealize.ShloMosaic.Lib.ValueIdx

set_option maxRecDepth 16384

noncomputable section

open Idealize.ShloMosaic Idealize.ShloMosaic.TcCoe Idealize.SL.Sem

namespace Cert.KernelIdeal.Body

open Cert.KernelIdeal Cert.KernelIdeal.Gen Cert.CosLoss Cert.CosLoss.Pay Idealize.ShloMosaic.ValueIdx

/-- A trip's number is below four. -/
theorem lt4 (k : Fin k0_t1_loop.trips) : k.val < 4 := Nat.lt_of_lt_of_le k.isLt (le_of_eq trips_eq)

/-- Row `x` of the 256 rows trip `k` reads is row 256 k + x of the block. -/
theorem rows_idx (k : Fin k0_t1_loop.trips) (j : Fin 4) (x : Fin 256) (d : Fin 64) :
    (Rect.unit (s := S4x1024x64) (k0_off1 k) S4x256x64.size (k0_off1_inb k)).idx (ix3 j x d)
      = ix3 j (chunkRow ⟨k.val, lt4 k⟩ x) d := by
  funext a; apply Fin.ext
  match a with
  | ⟨0, _⟩ => rw [LoadRect.idx_apply]; simp [Rect.unit, k0_off1_eq k]
  | ⟨1, _⟩ => rw [LoadRect.idx_apply]; simp [Rect.unit, k0_off1_eq k, chunkRow]
  | ⟨2, _⟩ => rw [LoadRect.idx_apply]; simp [Rect.unit, k0_off1_eq k]

/-- The rows trip `k` reads are the normalised rows of chunk `k`. -/
theorem rowsOf_apply (x0 : Vec Ideal S4x1024x64 .f32) (k : Fin k0_t1_loop.trips) (j : Fin 4) (x : Fin 256) (d : Fin 64) :
    rowsOf (F := Ideal) x0 k (ix3 j x d) = nrm x0 j (chunkRow ⟨k.val, lt4 k⟩ x) d := by
  unfold rowsOf
  show k0_pay2 (F := Ideal) x0 ((Rect.unit (s := S4x1024x64) (k0_off1 k) S4x256x64.size (k0_off1_inb k)).idx (ix3 j x d)) = _
  rw [rows_idx, pay2_apply]

/-- The running maximum after `k` trips, at batch `j` and column `t`. -/
theorem acc_apply (x0 x1 : Vec Ideal S4x1024x64 .f32) (j : Fin 4) (t : Fin 1024) : ∀ k : ℕ, k ≤ 4 →
    acc (F := Ideal) x0 x1 k (ix3 j (0 : Fin 1) t) = runningUpTo x0 x1 j t k
  | 0, _ => by
    rw [acc, pay3_apply, runningUpTo]
  | k + 1, hk => by
    have hk4 : k < 4 := hk
    have hlt : k < k0_t1_loop.trips := by rw [trips_eq]; exact hk4
    rw [show k + 1 = (⟨k, hlt⟩ : Fin k0_t1_loop.trips).val + 1 from rfl, acc_succ, pay4_apply]
    rw [acc_apply x0 x1 j t k (Nat.le_of_succ_le hk)]
    rw [runningUpTo, dif_pos hk4]
    refine congrArg (max (runningUpTo x0 x1 j t k)) ?_
    unfold chunk
    refine congrArg (fun f => Finset.fold max negInf f (Finset.univ : Finset (Fin 256))) (funext fun x => ?_)
    unfold sim
    exact Finset.sum_congr rfl fun d _ => by rw [rowsOf_apply]

/-- The mask block as a mask of four batches. -/
def mskOf (x2 : Vec Ideal S4x1x1024 .i32) : Msk 4 := fun i => x2 (ix3 (i 0) (0 : Fin 1) (i 1))

/-- The output entry of batch `j`: the weighted loss of that batch with the running maximum in place of the maximum. -/
theorem out_apply (c : Dev nD) (i : grid0.Coords) (arg1 : Memref sig .tc .vmem S4x1024x64 .f32) (harg1 : arg1.IsWhole) (arg2 : Memref sig .tc .vmem S4x1024x64 .f32) (harg2 : arg2.IsWhole) (arg3 : Memref sig .tc .vmem S4x1x1024 .i32) (harg3 : arg3.IsWhole) (arg4 : Memref sig .tc .vmem S4x1x1 .f32) (harg4 : arg4.IsWhole) (arg5 : Memref sig .tc .vmem S4x1024x64 .bf16) (harg5 : arg5.IsWhole) (arg6 : Memref sig .tc .vmem S4x1x1024 .f32) (harg6 : arg6.IsWhole)
    (x0 x1 : Vec Ideal S4x1024x64 .f32) (x2 : Vec Ideal S4x1x1024 .i32) (j : Fin 4) :
    out0_A_3 (F := Ideal) c i arg1 harg1 arg2 harg2 arg3 harg3 arg4 harg4 arg5 harg5 arg6 harg6 x0 x1 x2 (ix3 j (0 : Fin 1) (0 : Fin 1))
      = rowLossOf (running x0 x1 j) (mskOf x2) j := by
  rw [out_eq, pay1_apply]
  unfold rowLossOf
  refine Finset.sum_congr rfl fun t _ => ?_
  rw [pay5_apply, trips_eq, acc_apply x0 x1 j t 4 le_rfl]
  rfl

end Cert.KernelIdeal.Body

end
-- ==== Proof.Restrict.lean ====
/-
  The specification is local to a batch: `nrm`, `sim` and `best` at batch `j` of one array depend only on that
  batch's rows. So a block whose batch `j` holds the rows of batch `b` of the whole array has the same values there.
-/
import proofs.«102936_j48911087566953_2_alg».proof.Proof.Spec

noncomputable section

namespace Cert.CosLoss

open Idealize.ShloMosaic Idealize.ShloMosaic.ValueIdx

variable {B B' : Nat}

/-- Batch `j` of `u` is batch `b` of `v`, entry by entry. -/
def SameBatch (u : Arr B') (v : Arr B) (j : Fin B') (b : Fin B) : Prop := ∀ s d, u (ix3 j s d) = v (ix3 b s d)

theorem sq_congr {u : Arr B'} {v : Arr B} {j : Fin B'} {b : Fin B} (h : SameBatch u v j b) (s : Fin 1024) :
    sq u j s = sq v b s := by
  unfold sq
  exact Finset.sum_congr rfl fun k _ => by rw [h s k]

theorem nrm_congr {u : Arr B'} {v : Arr B} {j : Fin B'} {b : Fin B} (h : SameBatch u v j b) (s : Fin 1024) (d : Fin 64) :
    nrm u j s d = nrm v b s d := by
  unfold nrm
  rw [h s d, sq_congr h s]

theorem sim_congr {p' y' : Arr B'} {p y : Arr B} {j : Fin B'} {b : Fin B} (hp : SameBatch p' p j b) (hy : SameBatch y' y j b)
    (x t : Fin 1024) : sim p' y' j x t = sim p y b x t := by
  unfold sim
  exact Finset.sum_congr rfl fun d _ => by rw [nrm_congr hp x d, nrm_congr hy t d]

theorem best_congr {p' y' : Arr B'} {p y : Arr B} {j : Fin B'} {b : Fin B} (hp : SameBatch p' p j b) (hy : SameBatch y' y j b)
    (t : Fin 1024) : best p' y' j t = best p y b t := by
  unfold best
  exact congrArg (fun f => Finset.fold max negInf f (Finset.univ : Finset (Fin 1024))) (funext fun x => sim_congr hp hy x t)

end Cert.CosLoss

end
-- ==== Proof.Bound.lean ====
/-
  For real-valued inputs the running maximum equals the plain maximum.

  Each row is divided by max(‖row‖, ε) with ε > 0, so the normalised entries are real and the sum of their squares is
  at most 1. By the Cauchy–Schwarz inequality every inner product of two normalised rows is a real number of absolute
  value at most 1, in particular at least -2. Hence starting the maximum at -2 instead of -∞ changes nothing, and
  splitting the 1024 rows into four chunks of 256 is only a rearrangement of the same maximum.
-/
import proofs.«102936_j48911087566953_2_alg».proof.Proof.Spec

noncomputable section

namespace Cert.CosLoss

open Idealize.ShloMosaic Idealize.ShloMosaic.ValueIdx

/-! ### The literal constants -/

theorem negInf_eq : negInf = ⊥ := by
  simp [negInf, Ideal.ofBits, Ideal.ieee]

theorem start_eq : start = ((-2 : ℝ) : EReal) := by
  simp [start, Ideal.ofBits, Ideal.ieee]
  norm_cast
  norm_num

theorem eps_eq : ∃ e : ℝ, 0 < e ∧ eps = (e : EReal) := by
  refine ⟨11258999 * (2 ^ 50)⁻¹, by positivity, ?_⟩
  simp [eps, Ideal.ofBits, Ideal.ieee]

/-! ### Sums of real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### Normalised rows -/

/-- A normalised real row is real, and the sum of the squares of its entries is at most 1. -/
theorem nrm_real {B : Nat} (v : Arr B) (hv : IsReal v) (b : Fin B) (s : Fin 1024) :
    ∃ u : Fin 64 → ℝ, (∀ d, nrm v b s d = (u d : EReal)) ∧ ∑ d, u d ^ 2 ≤ 1 := by
  choose r hr using hv
  obtain ⟨e, he, hee⟩ := eps_eq
  -- the row, its sum of squares S, and the divisor n = max(√S, ε) > 0
  set a : Fin 64 → ℝ := fun k => r (ix3 b s k) with ha
  set S : ℝ := ∑ k, a k * a k with hS
  have hS0 : 0 ≤ S := Finset.sum_nonneg fun k _ => mul_self_nonneg (a k)
  have hsq : sq v b s = (S : EReal) := by
    rw [sq, hS, coe_sum]
    refine Finset.sum_congr rfl fun k _ => ?_
    rw [hr, EReal.coe_mul]
  set n : ℝ := max (Real.sqrt S) e with hn
  have hn0 : 0 < n := lt_of_lt_of_le he (le_max_right _ _)
  have hden : max (Ideal.sqrt (sq v b s)) eps = (n : EReal) := by
    rw [hsq, hee, Ideal.sqrt_coe, if_neg (not_lt.mpr hS0), hn]
    exact (EReal.coe_strictMono.monotone.map_max).symm
  refine ⟨fun d => a d * (1 / n), fun d => ?_, ?_⟩
  · rw [nrm, hden, Ideal.div_coe hn0.ne', hr, ← EReal.coe_mul]
  · -- Σ (a d / n)² = S / n² ≤ 1 because n ≥ √S
    have hSn : S ≤ n ^ 2 := by
      have h1 : Real.sqrt S ≤ n := le_max_left _ _
      calc S = Real.sqrt S ^ 2 := (Real.sq_sqrt hS0).symm
        _ ≤ n ^ 2 := pow_le_pow_left₀ (Real.sqrt_nonneg S) h1 2
    have hsum : ∑ d, (a d * (1 / n)) ^ 2 = S * (1 / n) ^ 2 := by
      rw [hS, Finset.sum_mul]
      refine Finset.sum_congr rfl fun d _ => ?_
      ring
    rw [hsum]
    have hn2 : 0 < n ^ 2 := by positivity
    rw [one_div, inv_pow, ← div_eq_mul_inv, div_le_one hn2]
    exact hSn

/-! ### The inner products lie in [-1, 1] -/

/-- Every inner product of two normalised real rows is a real number at least -1. -/
theorem sim_real {B : Nat} (p y : Arr B) (hp : IsReal p) (hy : IsReal y) (b : Fin B) (x t : Fin 1024) :
    ∃ c : ℝ, -1 ≤ c ∧ sim p y b x t = (c : EReal) := by
  obtain ⟨u, hu, hu1⟩ := nrm_real p hp b x
  obtain ⟨w, hw, hw1⟩ := nrm_real y hy b t
  refine ⟨∑ d, u d * w d, ?_, ?_⟩
  · -- Cauchy–Schwarz: (Σ u w)² ≤ (Σ u²)(Σ w²) ≤ 1
    have hcs : (∑ d, u d * w d) ^ 2 ≤ 1 := by
      calc (∑ d, u d * w d) ^ 2 ≤ (∑ d, u d ^ 2) * ∑ d, w d ^ 2 :=
            Finset.sum_mul_sq_le_sq_mul_sq Finset.univ u w
        _ ≤ 1 * 1 :=
            mul_le_mul hu1 hw1 (Finset.sum_nonneg fun d _ => sq_nonneg (w d)) zero_le_one
        _ = 1 := one_mul 1
    have habs : |∑ d, u d * w d| ≤ 1 := (sq_le_one_iff_abs_le_one _).mp hcs
    exact (abs_le.mp habs).1
  · rw [sim, coe_sum]
    refine Finset.sum_congr rfl fun d _ => ?_
    rw [hu, hw, EReal.coe_mul]

/-- The starting value -2 lies below every inner product. -/
theorem start_le_sim {B : Nat} (p y : Arr B) (hp : IsReal p) (hy : IsReal y) (b : Fin B) (x t : Fin 1024) :
    start ≤ sim p y b x t := by
  obtain ⟨c, hc, hsim⟩ := sim_real p y hp hy b x t
  rw [start_eq, hsim, EReal.coe_le_coe_iff]
  linarith

/-! ### The two arrangements of the maximum -/

/-- Every inner product is at most the plain maximum. -/
theorem sim_le_best {B : Nat} (p y : Arr B) (b : Fin B) (x t : Fin 1024) : sim p y b x t ≤ best p y b t :=
  (Finset.le_fold_max _).mpr (Or.inr ⟨x, Finset.mem_univ x, le_rfl⟩)

/-- Every inner product of a chunk is at most that chunk's maximum. -/
theorem sim_le_chunk {B : Nat} (p y : Arr B) (b : Fin B) (c : Fin 4) (x : Fin 256) (t : Fin 1024) :
    sim p y b (chunkRow c x) t ≤ chunk p y b c t :=
  (Finset.le_fold_max _).mpr (Or.inr ⟨x, Finset.mem_univ x, le_rfl⟩)

/-- Every chunk maximum is at most the plain maximum. -/
theorem chunk_le_best {B : Nat} (p y : Arr B) (b : Fin B) (c : Fin 4) (t : Fin 1024) :
    chunk p y b c t ≤ best p y b t := by
  refine (Finset.fold_max_le _).mpr ⟨?_, fun x _ => sim_le_best p y b (chunkRow c x) t⟩
  rw [negInf_eq]
  exact bot_le

/-- The running maximum written out: -2, then the four chunk maxima. -/
theorem running_eq {B : Nat} (p y : Arr B) (b : Fin B) (t : Fin 1024) :
    running p y b t =
      max (max (max (max start (chunk p y b 0 t)) (chunk p y b 1 t)) (chunk p y b 2 t)) (chunk p y b 3 t) := by
  simp only [running, runningUpTo]
  rw [dif_pos (by norm_num : (0 : Nat) < 4), dif_pos (by norm_num : (1 : Nat) < 4),
    dif_pos (by norm_num : (2 : Nat) < 4), dif_pos (by norm_num : (3 : Nat) < 4)]
  rfl

/-- Every chunk maximum is at most the running maximum. -/
theorem chunk_le_running {B : Nat} (p y : Arr B) (b : Fin B) (c : Fin 4) (t : Fin 1024) :
    chunk p y b c t ≤ running p y b t := by
  rw [running_eq]
  fin_cases c
  · exact le_trans (le_trans (le_trans (le_max_right _ _) (le_max_left _ _)) (le_max_left _ _)) (le_max_left _ _)
  · exact le_trans (le_trans (le_max_right _ _) (le_max_left _ _)) (le_max_left _ _)
  · exact le_trans (le_max_right _ _) (le_max_left _ _)
  · exact le_max_right _ _

/-- Row x is row (x mod 256) of chunk (x / 256). -/
theorem chunkRow_div_mod (x : Fin 1024) :
    chunkRow ⟨x.val / 256, by have := x.isLt; omega⟩ ⟨x.val % 256, Nat.mod_lt _ (by norm_num)⟩ = x := by
  apply Fin.ext
  show 256 * (x.val / 256) + x.val % 256 = x.val
  exact Nat.div_add_mod x.val 256

/-- For real inputs the running maximum from -2 over four chunks is the plain maximum over all rows. -/
theorem running_eq_best {B : Nat} (p y : Arr B) (hp : IsReal p) (hy : IsReal y) (b : Fin B) (t : Fin 1024) :
    running p y b t = best p y b t := by
  apply le_antisymm
  · -- -2 ≤ the first inner product ≤ the maximum, and every chunk maximum ≤ the maximum
    rw [running_eq]
    have h0 : start ≤ best p y b t := le_trans (start_le_sim p y hp hy b 0 t) (sim_le_best p y b 0 t)
    exact max_le (max_le (max_le (max_le h0 (chunk_le_best p y b 0 t)) (chunk_le_best p y b 1 t))
      (chunk_le_best p y b 2 t)) (chunk_le_best p y b 3 t)
  · -- every row lies in one of the four chunks
    refine (Finset.fold_max_le _).mpr ⟨?_, fun x _ => ?_⟩
    · rw [negInf_eq]
      exact bot_le
    · rw [← chunkRow_div_mod x]
      exact le_trans (sim_le_chunk p y b _ _ t) (chunk_le_running p y b _ t)

end Cert.CosLoss

end
-- ==== Proof.KernelArray.lean ====
/-
  The kernel's result as the specification's `result` of the argument arrays.

  Grid point `t` works on batches 4 t … 4 t + 3: each of its three input blocks holds those batches of its array (the mask
  through a host broadcast that only inserts a unit axis), and its output block is entries 4 t … 4 t + 3 of the
  per-batch array. For real inputs the running maximum is the maximum (Bound.lean), so the entry of batch `b` is that
  batch's weighted loss. The sixteen output blocks tile the per-batch array, so after the run it holds every batch's
  weighted loss; the host operations after the region sum it, sum the weights, and divide.
-/
import proofs.«102936_j48911087566953_2_alg».proof.Proof.KernelPoint
import proofs.«102936_j48911087566953_2_alg».proof.Proof.Restrict
import proofs.«102936_j48911087566953_2_alg».proof.Proof.Bound
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Body Cert.CosLoss Idealize.ShloMosaic.ValueIdx

variable (m : (ℓ : Loc nD τ sig) → Buf (Elt Ideal) ℓ) (ρ : Dev nD → PrngReg)

/-- The argument arrays on core `c`. -/
abbrev argP (c : Dev nD) : Arr 64 := m ((c : Thread nD τ).loc main_arg0)
abbrev argY (c : Dev nD) : Arr 64 := m ((c : Thread nD τ).loc main_arg1)
abbrev argM (c : Dev nD) : Msk 64 := m ((c : Thread nD τ).loc main_arg2)

/-- A grid point's number is below sixteen. -/
theorem lt16 (t : Fin cfg0.N) : t.val < 16 := Nat.lt_of_lt_of_le t.isLt (le_of_eq N_0)

/-- Batch `j` of point `t`'s blocks is batch 4 t + j of the arrays. -/
def bat (t : Fin cfg0.N) (j : Fin 4) : Fin 64 := ⟨4 * t.val + j.val, by have := lt16 t; have := j.isLt; omega⟩

/-- The printed index maps, decided over the grid: every window's block index at point `t` is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The mask window's array, as the region finds it: the mask with a unit axis inserted. -/
theorem V_main_v0 (c : Dev nD) :
    (V m c main_v0 : S64x1x1024.Idx → BitVec 32)
      = broadcastInDim S64x1x1024 ![0, 2] bcast_S64x1024_S64x1x1024_0_2 (m ((c : Thread nD τ).loc main_arg2)) := by
  show StableHlo.after hostOps0 (fun b => m (c, b)) (Proc.devRef .tc main_v0) = _
  after_results

/-- … read at (b, 0, t): the mask at (b, t). -/
theorem V_main_v0_apply (c : Dev nD) (b : Fin 64) (t : Fin 1024) :
    (V m c main_v0 : S64x1x1024.Idx → BitVec 32) (ix3 b (0 : Fin 1) t) = argM m c (ix2 b t) := by
  rw [V_main_v0]
  exact broadcastInDim_apply _ bcast_S64x1024_S64x1x1024_0_2 _ (ix3 b (0 : Fin 1) t) (ix2 b t) (fun a => match a with
    | ⟨0, _⟩ => by show b.val = if (64 : Nat) = 1 then 0 else b.val; rw [if_neg (by decide)]
    | ⟨1, _⟩ => by show t.val = if (1024 : Nat) = 1 then 0 else t.val; rw [if_neg (by decide)])

/-- The first block at point `t` holds batches 4 t … of the first argument. -/
theorem iblk0_apply (c : Dev nD) (t : Fin cfg0.N) (j : Fin 4) (s : Fin 1024) (d : Fin 64) :
    (iblk m c 0 t : S4x1024x64.Idx → EReal) (ix3 j s d) = argP m c (ix3 (bat t j) s d) := by
  obtain ⟨e0, e1, e2, -⟩ := idx_facts t
  rw [show argP m c = V m c main_arg0 from (V_main_arg0 m c).symm]
  show V m c main_arg0 (((cfg0.win 0).blk t).view.emb (ix3 j s d)) = V m c main_arg0 (ix3 (bat t j) s d)
  refine congrArg (V m c main_arg0) (funext fun a => Fin.ext ?_)
  match a with
  | ⟨0, _⟩ => show win0_0.index t (0 : Fin 3) * 4 + 1 * j.val = 4 * t.val + j.val; omega
  | ⟨1, _⟩ => show win0_0.index t (1 : Fin 3) * 1024 + 1 * s.val = s.val; omega
  | ⟨2, _⟩ => show win0_0.index t (2 : Fin 3) * 64 + 1 * d.val = d.val; omega

/-- The second block likewise. -/
theorem iblk1_apply (c : Dev nD) (t : Fin cfg0.N) (j : Fin 4) (s : Fin 1024) (d : Fin 64) :
    (iblk m c 1 t : S4x1024x64.Idx → EReal) (ix3 j s d) = argY m c (ix3 (bat t j) s d) := by
  obtain ⟨-, -, -, e0, e1, e2, -⟩ := idx_facts t
  rw [show argY m c = V m c main_arg1 from (V_main_arg1 m c).symm]
  show V m c main_arg1 (((cfg0.win 1).blk t).view.emb (ix3 j s d)) = V m c main_arg1 (ix3 (bat t j) s d)
  refine congrArg (V m c main_arg1) (funext fun a => Fin.ext ?_)
  match a with
  | ⟨0, _⟩ => show win0_1.index t (0 : Fin 3) * 4 + 1 * j.val = 4 * t.val + j.val; omega
  | ⟨1, _⟩ => show win0_1.index t (1 : Fin 3) * 1024 + 1 * s.val = s.val; omega
  | ⟨2, _⟩ => show win0_1.index t (2 : Fin 3) * 64 + 1 * d.val = d.val; omega

/-- The mask block at point `t` holds batches 4 t … of the mask. -/
theorem iblk2_apply (c : Dev nD) (t : Fin cfg0.N) (j : Fin 4) (u : Fin 1024) :
    (iblk m c 2 t : S4x1x1024.Idx → BitVec 32) (ix3 j (0 : Fin 1) u) = argM m c (ix2 (bat t j) u) := by
  obtain ⟨-, -, -, -, -, -, e0, e1, e2, -⟩ := idx_facts t
  rw [← V_main_v0_apply m c (bat t j) u]
  show (V m c main_v0 : S64x1x1024.Idx → BitVec 32) (((cfg0.win 2).blk t).view.emb (ix3 j (0 : Fin 1) u)) = (V m c main_v0 : S64x1x1024.Idx → BitVec 32) (ix3 (bat t j) (0 : Fin 1) u)
  refine congrArg (V m c main_v0 : S64x1x1024.Idx → BitVec 32) (funext fun a => Fin.ext ?_)
  match a with
  | ⟨0, _⟩ => show win0_2.index t (0 : Fin 3) * 4 + 1 * j.val = 4 * t.val + j.val; omega
  | ⟨1, _⟩ => show win0_2.index t (1 : Fin 3) * 1 + 1 * 0 = 0; omega
  | ⟨2, _⟩ => show win0_2.index t (2 : Fin 3) * 1024 + 1 * u.val = u.val; omega

/-- What the output array ends holding: at batch `b` its weighted loss. -/
def perBatch (c : Dev nD) : S64x1x1.Idx → EReal := fun i => rowLoss (argP m c) (argY m c) (argM m c) (i 0)

/-- An index of a [·, 1, 1] array is its batch coordinate. -/
theorem eq_ix3_unit {n : Nat} (y : (⟨3, ![n, 1, 1]⟩ : Shape).Idx) : y = ix3 (y 0) (0 : Fin 1) (0 : Fin 1) := by
  funext a
  match a with
  | ⟨0, _⟩ => rfl
  | ⟨1, _⟩ => exact Fin.ext (by have h : (y 1).val < 1 := (y 1).isLt; show (y 1).val = 0; omega)
  | ⟨2, _⟩ => exact Fin.ext (by have h : (y 2).val < 1 := (y 2).isLt; show (y 2).val = 0; omega)

/-- WHAT POINT `t` WRITES BACK is block `t` of the per-batch weighted losses, for real inputs. -/
theorem flushed_eq (c : Dev nD) (hP : IsReal (argP m c)) (hY : IsReal (argY m c)) (t : Fin cfg0.N) :
    (dats m 0 c).flushed 3 t = ((cfg0.win 3).blk t).view.read (Elt Ideal) (perBatch m c) := by
  show (cfg0.win 3).cut (grid0.coords t) ((dats m 0 c).after 3 t) = _
  rw [after0_3]
  unfold outsAt0
  obtain ⟨-, -, -, -, -, -, -, -, -, e0, e1, e2⟩ := idx_facts t
  funext y
  obtain ⟨j, rfl⟩ : ∃ j : Fin 4, y = ix3 j (0 : Fin 1) (0 : Fin 1) := ⟨y 0, eq_ix3_unit y⟩
  show out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) (ix3 j (0 : Fin 1) (0 : Fin 1))
      = perBatch m c (((cfg0.win 3).blk t).view.emb (ix3 j (0 : Fin 1) (0 : Fin 1)))
  refine (out_apply c (grid0.coords t) (ms0_0 t) (hs0_0 t) (ms0_1 t) (hs0_1 t) (ms0_2 t) (hs0_2 t) (ms0_3 t) (hs0_3 t) scM0_0 (Memref.isWhole_whole _) scM0_1 (Memref.isWhole_whole _) (iblk m c 0 t) (iblk m c 1 t) (iblk m c 2 t) j).trans ?_
  have hb : (((cfg0.win 3).blk t).view.emb (ix3 j (0 : Fin 1) (0 : Fin 1)) : S64x1x1.Idx) 0 = bat t j :=
    Fin.ext (by show win0_3.index t (0 : Fin 3) * 4 + 1 * j.val = 4 * t.val + j.val; omega)
  unfold perBatch
  rw [hb]
  unfold rowLoss rowLossOf
  have s0 : SameBatch (iblk m c 0 t : Arr 4) (argP m c) j (bat t j) := fun s d => iblk0_apply m c t j s d
  have s1 : SameBatch (iblk m c 1 t : Arr 4) (argY m c) j (bat t j) := fun s d => iblk1_apply m c t j s d
  have r0 : IsReal (iblk m c 0 t : Arr 4) := fun i => by
    obtain ⟨r, hr⟩ := hP (ix3 (bat t (i 0)) (i 1) (i 2))
    refine ⟨r, ?_⟩
    rw [eq_ix3 i]
    exact (iblk0_apply m c t (i 0) (i 1) (i 2)).trans hr
  have r1 : IsReal (iblk m c 1 t : Arr 4) := fun i => by
    obtain ⟨r, hr⟩ := hY (ix3 (bat t (i 0)) (i 1) (i 2))
    refine ⟨r, ?_⟩
    rw [eq_ix3 i]
    exact (iblk1_apply m c t (i 0) (i 1) (i 2)).trans hr
  refine Finset.sum_congr rfl fun u _ => ?_
  rw [running_eq_best _ _ r0 r1 j u, best_congr s0 s1 u]
  refine congrArg (fun w => (one - best (argP m c) (argY m c) (bat t j) u) * w) ?_
  show (((mskOf (iblk m c 2 t) (ix2 j u)).toInt : ℝ) : EReal) = (((argM m c (ix2 (bat t j) u)).toInt : ℝ) : EReal)
  rw [← iblk2_apply m c t j u]
  rfl

/-- An index of the per-batch array is in point `t`'s block iff each coordinate is in the block's range on its axis. -/
theorem mem_blk (t : Fin cfg0.N) (i : S64x1x1.Idx) :
    i ∈ ((cfg0.win 3).blk t).view.set ↔ ∀ a : Fin 3, win0_3.index t a * S4x1x1.size a ≤ (i a).val ∧ (i a).val < win0_3.index t a * S4x1x1.size a + S4x1x1.size a := by
  show i ∈ ((View.whole main_v1).slice (win0_3.rect t)).set ↔ _
  rw [View.set_slice_whole, Rect.mem_set_unit]
  exact Iff.rfl

/-- Every batch is in the block of point b / 4. -/
theorem cover (i : S64x1x1.Idx) : ∃ t : Fin cfg0.N, (cfg0.win 3).flush t = true ∧ i ∈ ((cfg0.win 3).blk t).view.set := by
  have hi0 : (i 0).val < 64 := (i 0).isLt
  have hi1 : (i 1).val < 1 := (i 1).isLt
  have hi2 : (i 2).val < 1 := (i 2).isLt
  have hN : cfg0.N = 16 := N_0
  refine ⟨⟨(i 0).val / 4, by rw [hN]; omega⟩, flush0_3 _, ?_⟩
  rw [mem_blk]
  obtain ⟨-, -, -, -, -, -, -, -, -, e0, e1, e2⟩ := idx_facts ⟨(i 0).val / 4, by rw [hN]; omega⟩
  intro a
  match a with
  | ⟨0, _⟩ => show win0_3.index _ (0 : Fin 3) * 4 ≤ (i 0).val ∧ (i 0).val < win0_3.index _ (0 : Fin 3) * 4 + 4; rw [e0]; show (i 0).val / 4 * 4 ≤ (i 0).val ∧ (i 0).val < (i 0).val / 4 * 4 + 4; omega
  | ⟨1, _⟩ => show win0_3.index _ (1 : Fin 3) * 1 ≤ (i 1).val ∧ (i 1).val < win0_3.index _ (1 : Fin 3) * 1 + 1; rw [e1]; omega
  | ⟨2, _⟩ => show win0_3.index _ (2 : Fin 3) * 1 ≤ (i 2).val ∧ (i 2).val < win0_3.index _ (2 : Fin 3) * 1 + 1; rw [e2]; omega

/-- THE ARRAY after the run: every batch's weighted loss. -/
theorem final (c : Dev nD) (hP : IsReal (argP m c)) (hY : IsReal (argY m c)) :
    (dats m 0 c).arrAt 3 cfg0.N = perBatch m c :=
  (dats m 0 c).arrAt_eq_of_cover 3 (perBatch m c) (fun t _ => flushed_eq m c hP hY t) (cover)

end Cert.KernelIdeal.Whole

end
-- ==== Proof.KernelRun.lean ====
/-
  The host operations after the region and the kernel's run.

  After the region the per-batch array is summed over all its entries, the mask read as integers is summed, and the two
  sums are divided. The per-batch array has one entry per batch, so its total is the sum over the batches of the
  weighted losses: the specification's numerator. The weights' total is the specification's denominator.
-/
import proofs.«102936_j48911087566953_2_alg».proof.Proof.KernelArray

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Body Cert.CosLoss Idealize.ShloMosaic.ValueIdx

variable (m : (ℓ : Loc nD τ sig) → Buf (Elt Ideal) ℓ) (ρ : Dev nD → PrngReg)

/-- The indices of a [64, 1, 1] array are the 64 batches. -/
def unitEquiv : S64x1x1.Idx ≃ Fin 64 where
  toFun i := i 0
  invFun b := ix3 b (0 : Fin 1) (0 : Fin 1)
  left_inv i := (eq_ix3_unit i).symm
  right_inv _ := rfl

/-- The total of the per-batch array is the numerator. -/
theorem sum_perBatch (c : Dev nD) : ∑ i : S64x1x1.Idx, perBatch m c i = num (argP m c) (argY m c) (argM m c) := by
  unfold num perBatch
  exact Fintype.sum_equiv unitEquiv _ _ (fun i => rfl)

/-- The host's sum of the per-batch array from 0 is the numerator. -/
theorem total_perBatch (c : Dev nD) (i : S_.Idx) :
    Host.reduceAdd (F := Ideal) (perBatch m c) (constant S_ .f32 0x00000000#32) reducesTo_S64x1x1_S_d0_1_2 h_S_ i
      = num (argP m c) (argY m c) (argM m c) := by
  simp only [Host.reduceAdd, Ideal.hostReduceAdd_def]
  rw [Ideal.hostReduceAdd_total reducesTo_S64x1x1_S_d0_1_2 (fun b => b.elim0) (perBatch m c) _ i]
  show Ideal.ofBits .f32 0x00000000#32 + _ = _
  rw [Ideal.ofBits_zero_f32, zero_add, sum_perBatch]

/-- The host's sum of the weights from 0 is the denominator. -/
theorem total_weights (c : Dev nD) (i : S_.Idx) :
    Host.reduceAdd (F := Ideal) (sitofp .f32 (argM m c)) (constant S_ .f32 0x00000000#32) reducesTo_S64x1024_S_d0_1 h_S_ i
      = den (argM m c) := by
  simp only [Host.reduceAdd, Ideal.hostReduceAdd_def]
  rw [Ideal.hostReduceAdd_total reducesTo_S64x1024_S_d0_1 (fun b => b.elim0) (sitofp (F := Ideal) .f32 (argM m c)) _ i]
  show Ideal.ofBits .f32 0x00000000#32 + _ = _
  rw [Ideal.ofBits_zero_f32, zero_add]
  rfl

/-- The host's division, entry by entry. -/
theorem hostDivf_at {s : Shape} (a b : FVec Ideal s .f32) (i : s.Idx) : Host.divf (F := Ideal) a b i = Ideal.div (a i) (b i) := rfl

/-- The result buffer after the host operations that follow the region. -/
theorem tail_eq (c : Dev nD) (hP : IsReal (argP m c)) (hY : IsReal (argY m c)) :
    (Pipeline.afterTail₀ cfgs (dats m) 0 (V0 m) [hostOps1] c main_v5 : S_.Idx → EReal)
      = fun _ => result (argP m c) (argY m c) (argM m c) := by
  unfold Pipeline.afterTail₀
  show StableHlo.after hostOps1 _ (Proc.devRef .tc main_v5) = _
  after_results
  have hA : (Pipeline.withArrays (cfgs 0).spec c (V0 m c) (fun w => (dats m 0 c).arrAt w (cfgs 0).N) (Proc.devRef .tc main_v1) : S64x1x1.Idx → EReal)
      = perBatch m c :=
    (Pipeline.withArrays_arr spec0 launch0.win.arr_inj c _ _ 3).trans (final m c hP hY)
  have hM : (Pipeline.withArrays (cfgs 0).spec c (V0 m c) (fun w => (dats m 0 c).arrAt w (cfgs 0).N) (Proc.devRef .tc main_arg2) : S64x1024.Idx → BitVec 32)
      = argM m c :=
    (Pipeline.withArrays_of_ne _ c (V0 m c) _ main_arg2 (by exact (by decide : ∀ w, Pipeline.arrRef spec0 w ≠ main_arg2))).trans (V_main_arg2 m c)
  rw [hA, hM]
  funext i
  refine (hostDivf_at _ _ i).trans ?_
  rw [total_perBatch m c i, total_weights m c i]
  rfl

/-- THE KERNEL'S RUN, for real inputs: it terminates with the result at the specification's value of the argument
    arrays, and the arguments unchanged. -/
theorem run (hreal : ∀ c : Dev nD, IsReal (argP m c) ∧ IsReal (argY m c)) :
    θ_run defs (onTc (τ := τ) (main (F := Ideal))) ⟨m, fun _ => 0, ρ⟩ fun r => ∀ c : Dev nD,
      r.2.mem ((c.tc : Thread nD τ).loc main_v5) = (fun _ => result (argP m c) (argY m c) (argM m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v5 (Pipeline.mem_restRefs_of main_v5 (by decide) (by decide))).trans (tail_eq m c (hreal c).1 (hreal c).2),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The reference program's result is the specification's `result`.

  The reference is read one operation at a time through the generated stages `val_main_vN`: each stage is
  evaluated at an index written by its coordinates and identified with the corresponding named quantity
  of the specification (sum of squares, normalised entry, inner product, maximum over rows, weighted loss,
  the two totals and their quotient).
-/
import proofs.«102936_j48911087566953_2_alg».proof.Proof.Spec
import proofs.«102936_j48911087566953_2_alg».proof.Proof.Gen.ReferenceIdeal.Read

noncomputable section

namespace Cert.CosLoss.Ref

open Idealize.ShloMosaic Idealize.ShloMosaic.ValueIdx Cert.ReferenceIdeal Cert.ReferenceIdeal.Read Cert.CosLoss

/-! ## The composed index functions at coordinates -/

theorem idx_v1_ix (b : Fin 64) (s : Fin 1024) (k : Fin 64) : idx_main_v1 (ix2 b s) k = ix3 b s k :=
  funext fun a => Fin.ext (by match a with | ⟨0, _⟩ => rfl | ⟨1, _⟩ => rfl | ⟨2, _⟩ => rfl)

theorem idx_v2_ix (b : Fin 64) (s : Fin 1024) (z : Fin 1) : idx_main_v2 (ix3 b s z) = ix2 b s :=
  funext fun a => Fin.ext (by match a with | ⟨0, _⟩ => rfl | ⟨1, _⟩ => rfl)

theorem idx_v6_ix (b : Fin 64) (s : Fin 1024) (d : Fin 64) : idx_main_v6 (ix3 b s d) = ix3 b s (0 : Fin 1) :=
  funext fun a => Fin.ext (by match a with | ⟨0, _⟩ => rfl | ⟨1, _⟩ => rfl | ⟨2, _⟩ => rfl)

/-- The sum of the squares of row (b, s), as the reference computes it (the sum starts from 0). -/
theorem v1_at (x0 : Arr 64) (b : Fin 64) (s : Fin 1024) :
    val_main_v1 (F := Ideal) x0 (ix2 b s) = sq x0 b s := by
  rw [val_main_v1_apply]
  simp only [idx_v1_ix, val_main_cst_apply, val_main_v0_apply, Ideal.ofBits_def, Ideal.ofBits_zero_f32, zero_add,
    Ideal.mulf_def]
  rfl

/-- Entry d of the normalised row (b, s) of the first argument. -/
theorem v7_at (x0 : Arr 64) (b : Fin 64) (s : Fin 1024) (d : Fin 64) :
    val_main_v7 (F := Ideal) x0 (ix3 b s d) = nrm x0 b s d := by
  rw [val_main_v7_apply, val_main_v6_apply, idx_v6_ix, val_main_v5_apply, val_main_v3_apply, val_main_v2_apply,
    idx_v2_ix, v1_at, val_main_v4_apply, val_main_cst_0_apply]
  simp only [Ideal.hostDivf_def, Ideal.maximumf_def, Ideal.hostUnary_sqrt_def, Ideal.ofBits_def]
  rfl

theorem idx_v9_ix (b : Fin 64) (s : Fin 1024) (k : Fin 64) : idx_main_v9 (ix2 b s) k = ix3 b s k :=
  funext fun a => Fin.ext (by match a with | ⟨0, _⟩ => rfl | ⟨1, _⟩ => rfl | ⟨2, _⟩ => rfl)

theorem idx_v10_ix (b : Fin 64) (s : Fin 1024) (z : Fin 1) : idx_main_v10 (ix3 b s z) = ix2 b s :=
  funext fun a => Fin.ext (by match a with | ⟨0, _⟩ => rfl | ⟨1, _⟩ => rfl)

theorem idx_v14_ix (b : Fin 64) (s : Fin 1024) (d : Fin 64) : idx_main_v14 (ix3 b s d) = ix3 b s (0 : Fin 1) :=
  funext fun a => Fin.ext (by match a with | ⟨0, _⟩ => rfl | ⟨1, _⟩ => rfl | ⟨2, _⟩ => rfl)

theorem lidx_v16_ix (b : Fin 64) (x t : Fin 1024) (k : Fin 64) : lidx_main_v16 (ix3 b x t) k = ix3 b x k :=
  funext fun a => Fin.ext (by match a with | ⟨0, _⟩ => rfl | ⟨1, _⟩ => rfl | ⟨2, _⟩ => rfl)

theorem ridx_v16_ix (b : Fin 64) (x t : Fin 1024) (k : Fin 64) : ridx_main_v16 (ix3 b x t) k = ix3 b t k :=
  funext fun a => Fin.ext (by match a with | ⟨0, _⟩ => rfl | ⟨1, _⟩ => rfl | ⟨2, _⟩ => rfl)

/-- The sum of the squares of row (b, s) of the second argument. -/
theorem v9_at (x1 : Arr 64) (b : Fin 64) (s : Fin 1024) :
    val_main_v9 (F := Ideal) x1 (ix2 b s) = sq x1 b s := by
  rw [val_main_v9_apply]
  simp only [idx_v9_ix, val_main_cst_1_apply, val_main_v8_apply, Ideal.ofBits_def, Ideal.ofBits_zero_f32, zero_add,
    Ideal.mulf_def]
  rfl

/-- Entry d of the normalised row (b, s) of the second argument. -/
theorem v15_at (x1 : Arr 64) (b : Fin 64) (s : Fin 1024) (d : Fin 64) :
    val_main_v15 (F := Ideal) x1 (ix3 b s d) = nrm x1 b s d := by
  rw [val_main_v15_apply, val_main_v14_apply, idx_v14_ix, val_main_v13_apply, val_main_v11_apply, val_main_v10_apply,
    idx_v10_ix, v9_at, val_main_v12_apply, val_main_cst_2_apply]
  simp only [Ideal.hostDivf_def, Ideal.maximumf_def, Ideal.hostUnary_sqrt_def, Ideal.ofBits_def]
  rfl

/-- The inner product of normalised row x of the first argument with normalised row t of the second. -/
theorem v16_at (x0 x1 : Arr 64) (b : Fin 64) (x t : Fin 1024) :
    val_main_v16 (F := Ideal) x0 x1 (ix3 b x t) = sim x0 x1 b x t := by
  rw [val_main_v16_apply]
  simp only [lidx_v16_ix, ridx_v16_ix, v7_at, v15_at]
  rfl

/-- The reduced index (b, t) with row x put back on axis 1 is (b, x, t). -/
theorem lift_v17_ix (h : S64x1024x1024.Reduces [1] S64x1024) (b : Fin 64) (t : Fin 1024)
    (k : Fin (S64x1024x1024.size 1)) : h.lift (ix2 b t) k = ix3 b (⟨k.val, k.isLt⟩ : Fin 1024) t := by
  funext c; apply Fin.ext
  fin_cases c <;> rfl

/-- The maximum over all rows x, from -∞. -/
theorem v17_at (x0 x1 : Arr 64) (b : Fin 64) (t : Fin 1024) :
    val_main_v17 (F := Ideal) x0 x1 (ix2 b t) = best x0 x1 b t := by
  have h : S64x1024x1024.Reduces [1] S64x1024 := by decide
  unfold val_main_v17
  rw [Host.reduce_eq_fold_single FloatOps.maximumf _ _ Gen.reducesTo_S64x1024x1024_S64x1024_d1 h Gen.h_S_]
  have hf : (val_main_v16 (F := Ideal) x0 x1 ∘ h.lift (ix2 b t)) = fun x : Fin 1024 => sim x0 x1 b x t :=
    funext fun k => by
      show val_main_v16 (F := Ideal) x0 x1 (h.lift (ix2 b t) k) = _
      rw [lift_v17_ix h b t k, v16_at]
      rfl
  rw [hf]
  rfl

/-- One minus the maximum, at (b, t). -/
theorem v19_at (x0 x1 : Arr 64) (b : Fin 64) (t : Fin 1024) :
    val_main_v19 (F := Ideal) x0 x1 (ix2 b t) = one - best x0 x1 b t := by
  rw [val_main_v19_apply, val_main_v18_apply, val_main_cst_4_apply, v17_at]
  simp only [Ideal.subf_def, Ideal.ofBits_def]
  rfl

/-- The mask word at (b, t) read as a signed integer. -/
theorem v20_at (x2 : Msk 64) (b : Fin 64) (t : Fin 1024) :
    val_main_v20 (F := Ideal) x2 (ix2 b t) = wt x2 b t := rfl

/-- The weighted loss at (b, t). -/
theorem v21_at (x0 x1 : Arr 64) (x2 : Msk 64) (b : Fin 64) (t : Fin 1024) :
    val_main_v21 (F := Ideal) x0 x1 x2 (ix2 b t) = (one - best x0 x1 b t) * wt x2 b t := by
  rw [val_main_v21_apply, v19_at, v20_at]
  rfl

/-- The numerator: the sum of all weighted losses (the sum starts from 0). -/
theorem v22_at (x0 x1 : Arr 64) (x2 : Msk 64) (i : S_.Idx) :
    val_main_v22 (F := Ideal) x0 x1 x2 i = num x0 x1 x2 := by
  rw [val_main_v22_apply, val_main_cst_5_apply, Ideal.ofBits_def, Ideal.ofBits_zero_f32, zero_add, sum_idx2]
  simp only [v21_at]
  rfl

/-- The denominator: the sum of all weights (the sum starts from 0). -/
theorem v23_at (x2 : Msk 64) (i : S_.Idx) :
    val_main_v23 (F := Ideal) x2 i = den x2 := by
  rw [val_main_v23_apply, val_main_cst_6_apply, Ideal.ofBits_def, Ideal.ofBits_zero_f32, zero_add]
  rfl

/-- The reference program's result is the specification's. -/
theorem ref_value (x0 x1 : (⟨Cert.ReferenceIdeal.S64x1024x64, .f32⟩ : BufTy).Contents (Elt Ideal))
    (x2 : (⟨Cert.ReferenceIdeal.S64x1024, .i32⟩ : BufTy).Contents (Elt Ideal)) :
    Cert.ReferenceIdeal.Read.val_main_v24 (F := Ideal) x0 x1 x2 = fun _ => Cert.CosLoss.result x0 x1 x2 := by
  funext i
  rw [val_main_v24_apply, v22_at, v23_at]
  rfl

end Cert.CosLoss.Ref

end
-- ==== Proof.Finite.lean ====
/-
  The printed precondition makes both float arguments real-valued.

  The precondition is the conjunction of two tests, one per float argument: every entry x satisfies |x| < +∞.
  Over the extended reals |x| = max x (-x), which is +∞ at both infinities, so an entry passes exactly when it is a
  real number. A conjunction over all entries that comes out 1 had a 1 at every entry.
-/
import proofs.«102936_j48911087566953_2_alg».proof.Proof.Spec
import proofs.«102936_j48911087566953_2_alg».proof.Pre_finite_inputs
import Idealize.ShloMosaic.Lib.ReduceAll

noncomputable section

namespace Cert.CosLoss

open Idealize.ShloMosaic Idealize.ShloMosaic.ValueIdx

/-- The word the entries are compared with is +∞. -/
theorem posInf_eq : Ideal.ofBits .f32 0x7F800000#32 = (⊤ : EReal) := by
  simp [Ideal.ofBits, Ideal.ieee]

/-- An extended real whose absolute value lies strictly below +∞ is a real number. -/
theorem real_of_abs_lt_top (x : EReal)
    (h : Ideal.cmp .olt (max x (-x)) (Ideal.ofBits .f32 0x7F800000#32) = 1#1) : ∃ r : ℝ, x = (r : EReal) := by
  rw [posInf_eq] at h
  induction x using EReal.rec with
  | bot => simp [Ideal.cmp] at h
  | coe r => exact ⟨r, rfl⟩
  | top => simp [Ideal.cmp] at h

/-- If the precondition holds, every entry of either float argument is a real number. -/
theorem isReal_of_pre [Cert.Pre_finite_inputs.Facts]
    (a0 a1 : (⟨Cert.Pre_finite_inputs.S64x1024x64, .f32⟩ : BufTy).Contents (Elt Ideal))
    (a2 : (⟨Cert.Pre_finite_inputs.S64x1024, .i32⟩ : BufTy).Contents (Elt Ideal))
    (h : Cert.Pre_finite_inputs.fn (F := Ideal) a0 a1 a2 = (fun _ => 1#1)) : IsReal a0 ∧ IsReal a1 := by
  have h0 := congrFun h ValueIdx.ix0
  dsimp only [Cert.Pre_finite_inputs.fn] at h0
  -- the result is the conjunction of the two tests
  obtain ⟨h1, h2⟩ := IntOp.andi_eq_one.1 h0
  -- the result of each test has a single index, so each test held at every entry
  haveI : Subsingleton Cert.Pre_finite_inputs.S_.Idx := ⟨fun a b => funext fun d => d.elim0⟩
  have e1 := Host.reduce_andi_all _ _ _ _ _ h1
  have e2 := Host.reduce_andi_all _ _ _ _ _ h2
  exact ⟨fun i => real_of_abs_lt_top (a0 i) (e1 i), fun i => real_of_abs_lt_top (a1 i) (e2 i)⟩

end Cert.CosLoss

end
-- ==== Proof.lean ====
/-
  The kernel and its reference compute one function of their arguments over the extended reals.

  Both normalise every row of the two float arrays (a row divided by the larger of its Euclidean norm and a small
  positive constant), take all inner products of a normalised row of the first array with a normalised row of the
  second within a batch, maximise over the rows of the first array, and return the sum of (1 − maximum), weighted by the
  integer mask, divided by the sum of the weights. The reference takes the maximum in one reduction from −∞. The kernel
  works on four batches per grid point and keeps a running maximum that starts at the finite value −2 and takes in the
  rows in four chunks of 256; its per-batch sums are then added up by the host. The two arrangements agree because some
  inner product is at least −2: for real inputs every normalised row has norm at most 1, so by the Cauchy–Schwarz
  inequality every inner product is at least −1. That is the one place the precondition (all float inputs finite) is
  used. The remaining differences — the order and grouping of sums and maxima, a change of float format — are none over
  the extended reals.

  Modules: Spec (the common function), Bound (the inequality and the two maxima), Restrict (the function is local to a
  batch), Finite (the precondition gives real inputs), RefValue (the reference is the function), Payload (the body's
  arithmetic entry by entry), KernelBody, KernelPoint (what one grid point leaves), KernelArray (the blocks tile the
  per-batch array), KernelRun (the host operations after the region, and the run).
-/
import proofs.«102936_j48911087566953_2_alg».proof.Defs
import proofs.«102936_j48911087566953_2_alg».proof.Proof.Gen.Kernel
import proofs.«102936_j48911087566953_2_alg».proof.Proof.Gen.Kernel.Skeleton
import proofs.«102936_j48911087566953_2_alg».proof.Proof.Gen.Kernel.Loops
import proofs.«102936_j48911087566953_2_alg».proof.Proof.Gen.Kernel.Launch
import proofs.«102936_j48911087566953_2_alg».proof.Proof.Gen.Kernel.Points
import proofs.«102936_j48911087566953_2_alg».proof.Proof.Gen.Kernel.Frame
import proofs.«102936_j48911087566953_2_alg».proof.Proof.Gen.KernelIdeal
import proofs.«102936_j48911087566953_2_alg».proof.Proof.Gen.KernelIdeal.Skeleton
import proofs.«102936_j48911087566953_2_alg».proof.Proof.Gen.KernelIdeal.Loops
import proofs.«102936_j48911087566953_2_alg».proof.Proof.Gen.KernelIdeal.Launch
import proofs.«102936_j48911087566953_2_alg».proof.Proof.Gen.KernelIdeal.Points
import proofs.«102936_j48911087566953_2_alg».proof.Proof.Gen.KernelIdeal.Frame
import proofs.«102936_j48911087566953_2_alg».proof.Proof.Gen.ReferenceIdeal
import proofs.«102936_j48911087566953_2_alg».proof.Proof.Gen.ReferenceIdeal.Run
import proofs.«102936_j48911087566953_2_alg».proof.Proof.Gen.ReferenceIdeal.Read
import proofs.«102936_j48911087566953_2_alg».proof.Proof.Gen.Pre_finite_inputs
import proofs.«102936_j48911087566953_2_alg».proof.Proof.KernelRun
import proofs.«102936_j48911087566953_2_alg».proof.Proof.RefValue
import proofs.«102936_j48911087566953_2_alg».proof.Proof.Finite
import Idealize.ShloMosaic.Adequacy
import Idealize.ShloMosaic.Init

noncomputable section

namespace Cert.Proof

open Idealize.ShloMosaic Idealize.SL.Sem Cert.CosLoss

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on finite arguments both programs end at the specification's value of those arguments. -/
theorem algebraic : Cert.algebraic_KernelIdeal_ReferenceIdeal := by
  intro m ρ m' ρ' hpre hagree
  have hreal : ∀ c : Dev Cert.KernelIdeal.nD,
      IsReal (Cert.KernelIdeal.Whole.argP m c) ∧ IsReal (Cert.KernelIdeal.Whole.argY m c) :=
    fun c => isReal_of_pre _ _ _ (hpre c)
  refine ⟨fun c => (fun _ => result (Cert.KernelIdeal.Whole.argP m c) (Cert.KernelIdeal.Whole.argY m c) (Cert.KernelIdeal.Whole.argM m c)),
    Cert.KernelIdeal.Whole.run m ρ hreal, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.CosLoss.Ref.ref_value, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
